-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 128
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S100000x128, .f32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S_, .i32⟩
  | .hbm, ⟨106, _⟩ => ⟨S1700000, .i32⟩
  | .hbm, ⟨107, _⟩ => ⟨S1700000, .i1⟩
  | .hbm, ⟨108, _⟩ => ⟨S_, .i32⟩
  | .hbm, ⟨109, _⟩ => ⟨S1700000, .i32⟩
  | .hbm, ⟨110, _⟩ => ⟨S1700000, .i32⟩
  | .hbm, ⟨111, _⟩ => ⟨S1700000, .i32⟩
  | .hbm, ⟨112, _⟩ => ⟨S1700000x1, .i32⟩
  | .hbm, ⟨113, _⟩ => ⟨S1700000x128, .f32⟩
  | .hbm, ⟨114, _⟩ => ⟨S1700000x1, .f32⟩
  | .hbm, ⟨115, _⟩ => ⟨S1700000x128, .f32⟩
  | .hbm, ⟨116, _⟩ => ⟨S1700000x128, .f32⟩
  | .hbm, ⟨117, _⟩ => ⟨S_, .f32⟩
  | .hbm, ⟨118, _⟩ => ⟨S100000x128, .f32⟩
  | .hbm, ⟨119, _⟩ => ⟨S1700000x1, .i32⟩
  | .hbm, ⟨120, _⟩ => ⟨S100000x128, .f32⟩
  | .hbm, ⟨121, _⟩ => ⟨S1x128, .f32⟩
  | .hbm, ⟨122, _⟩ => ⟨S100000x128, .f32⟩
  | .hbm, ⟨123, _⟩ => ⟨S100000x128, .f32⟩
  | .hbm, ⟨124, _⟩ => ⟨S_, .f32⟩
  | .hbm, ⟨125, _⟩ => ⟨S100000x128, .f32⟩
  | .hbm, ⟨126, _⟩ => ⟨S100000x128, .f32⟩
  | .hbm, ⟨127, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  dot_S5000x256_S256x128_S5000x128_1_0_0_1_n_n_wf : DotDims.WF S5000x256 S256x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v88) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v89) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩
abbrev S100000x1 : Shape := ⟨2, ![100000, 1]⟩

abbrev nBuf : Space → Nat
  | .hbm => 146
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S100000x128, .f32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .f32⟩
  | 73 => ⟨S1700000, .f32⟩
  | 74 => ⟨S_, .f32⟩
  | 75 => ⟨S100000, .f32⟩
  | 76 => ⟨S1700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x128, .f32⟩
  | 114 => ⟨S1700000x1, .f32⟩
  | 115 => ⟨S1700000x128, .f32⟩
  | 116 => ⟨S1700000x128, .f32⟩
  | 117 => ⟨S_, .f32⟩
  | 118 => ⟨S100000x128, .f32⟩
  | 119 => ⟨S1700000x1, .i32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x64, .f32⟩
  | _ => ⟨S100000x256, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x64, .f32⟩
  | 10 => ⟨S100000x64, .f32⟩
  | 11 => ⟨S100000x64, .f32⟩
  | 12 => ⟨S_, .f32⟩
  | 13 => ⟨S100000, .f32⟩
  | 14 => ⟨S100000x1, .f32⟩
  | 15 => ⟨S100000x1, .f32⟩
  | 16 => ⟨S100000x64, .f32⟩
  | 17 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_call4_cst : Ref sig .tc := ⟨.hbm, 131, rfl⟩
abbrev main_call4_v0 : Ref sig .tc := ⟨.hbm, 132, rfl⟩
abbrev main_call4_cst_0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_v5 : Ref sig .tc := ⟨.hbm, 138, rfl⟩
abbrev main_call4_v6 : Ref sig .tc := ⟨.hbm, 139, rfl⟩
abbrev main_call4_cst_1 : Ref sig .tc := ⟨.hbm, 140, rfl⟩
abbrev main_call4_v7 : Ref sig .tc := ⟨.hbm, 141, rfl⟩
abbrev main_call4_v8 : Ref sig .tc := ⟨.hbm, 142, rfl⟩
abbrev main_call4_v9 : Ref sig .tc := ⟨.hbm, 143, rfl⟩
abbrev main_call4_v10 : Ref sig .tc := ⟨.hbm, 144, rfl⟩
abbrev main_v93 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result array NAMED. The program is three TensorCore regions among stretches of
  host operations; its run is the chain of those segments from the launch memory, and the memory it ends in is the
  last boundary's contents `W12`: every buffer at the fold of the host stretches and of the regions' write-backs. So the
  result array `main_v89` ends at `W12 m ρ c main_v89`, and the eight argument arrays end as launched.
-/
import proofs.«127704_j86612310492049_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result array at the
    last boundary's contents and the arguments as launched: the segments' chain from the launch memory, the final
    thread state read against the final memory, buffer by buffer. -/
theorem run_named : θ_run defs (onTc (τ := τ) (main (F := F))) ⟨m, fun _ => 0, ρ⟩ (fun r => ∀ c : Dev nD,
      r.2.mem ((c.tc : Thread nD τ).loc main_v89) = W12 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v89 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Run

end
-- ==== Proof.Layer.lean ====
/-
  One graph-convolution layer on the host, as both programs print it — the same operations on the same shapes. From the
  edge list `e` (2 × 1600000 node numbers): the sources `rowOf e` and the targets `colOf e` are the list's two rows, each
  followed by 0 … 99999 (the self loops). A node number below zero counts from the end (`startOf`). The degree of a node is
  the number of edges that target it (a scatter-add of ones), its weight `disOf` the reciprocal square root of the degree where
  the degree is positive and 0 elsewhere, and an edge's weight `normOf` the product of its two ends' weights. The layer
  gathers the rows of `h` at the edges' sources, scales each by its edge's weight, adds them up at the edges' targets
  (`aggOf`), adds the bias along the rows and clamps at zero from below (`layer`).
-/
import proofs.«127704_j86612310492049_1_alg».proof.Proof.Gen.KernelIdeal

noncomputable section

namespace Cert.KernelIdeal.Spec

open Cert.KernelIdeal Cert.KernelIdeal.Facts₀ Idealize.ShloMosaic

variable {F : FTy → Type} [FloatOps F]

/-- The edges' sources: the edge list's first row, then every node once. -/
def rowOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' targets: the edge list's second row, then every node once. -/
def colOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node numbers as a column of start indices, a negative one counted from the end. -/
def startOf (idx : (⟨S1700000, .i32⟩ : BufTy).Contents (Elt F)) : (⟨S1700000x1, .i32⟩ : BufTy).Contents (Elt F) :=
  broadcastInDim S1700000x1 ![0] bcast_S1700000_S1700000x1_0
    (select (cmpi .slt idx (broadcastInDim S1700000 ![] bcast_S_S1700000 (constantI S_ 32 0#32)))
      (addi idx (broadcastInDim S1700000 ![] bcast_S_S1700000 (constantI S_ 32 100000#32))) idx)

/-- A node's degree: the number of edges that target it. -/
def degOf (col : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 col)
    (broadcastInDim S1700000 ![] bcast_S_S1700000 (constant S_ .f32 0x3F800000#32))

/-- A node's weight: the reciprocal square root of its degree where that is positive, 0 elsewhere. -/
def disOf (col : (⟨S1700000, .i32⟩ : BufTy).Contents (Elt F)) : (⟨S100000, .f32⟩ : BufTy).Contents (Elt F) :=
  select (cmpf (F := F) .ogt (degOf col) (broadcastInDim S100000 ![] bcast_S_S100000 (constant S_ .f32 0x00000000#32)))
    (Host.rsqrt (degOf col))
    (broadcastInDim S100000 ![] bcast_S_S100000 (constant S_ .f32 0x00000000#32))

/-- An edge's weight: the product of its source's and its target's. -/
def normOf (row col : (⟨S1700000, .i32⟩ : BufTy).Contents (Elt F)) : (⟨S1700000, .f32⟩ : BufTy).Contents (Elt F) :=
  mulf (Host.gather gather_S100000_S1700000x1_S1700000_n_0_n_n_0_1_1 (disOf col) (startOf row))
    (Host.gather gather_S100000_S1700000x1_S1700000_n_0_n_n_0_1_1 (disOf col) (startOf col))

/-- The weighted sum, at every node, of the rows of `h` at the sources of the edges that target it. -/
def aggOf (row col : (⟨S1700000, .i32⟩ : BufTy).Contents (Elt F)) (h : (⟨S100000x128, .f32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 col)
    (mulf (Host.gather gather_S100000x128_S1700000x1_S1700000x128_1_0_n_n_0_1_1128 h (startOf row))
      (broadcastInDim S1700000x128 ![0, 1] bcast_S1700000x1_S1700000x128_0_1
        (broadcastInDim S1700000x1 ![0] bcast_S1700000_S1700000x1_0 (normOf row col))))

/-- The layer: the weighted sum plus the bias along the rows, clamped at zero from below. -/
def layer (row col : (⟨S1700000, .i32⟩ : BufTy).Contents (Elt F)) (b : (⟨S128, .f32⟩ : BufTy).Contents (Elt F))
    (h : (⟨S100000x128, .f32⟩ : BufTy).Contents (Elt F)) : (⟨S100000x128, .f32⟩ : BufTy).Contents (Elt F) :=
  maximumf
    (addf (aggOf row col h)
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

end Cert.KernelIdeal.Spec

end
-- ==== Proof.KernelStages.lean ====
/-
  The host stretches of the idealized kernel's program, read as values. Between the first and the second product the
  host operations are one graph-convolution layer (`Spec.layer`) of the first product, the edges' sources and targets and
  the first bias; between the second and the third product, the same layer of the second product and the second bias. The
  sources and targets are computed once, before the first product, from the edge list. No host operation writes an
  argument array, nor the sources and targets once computed.
-/
import proofs.«127704_j86612310492049_1_alg».proof.Proof.Gen.KernelIdeal.Frame
import proofs.«127704_j86612310492049_1_alg».proof.Proof.Layer
import Idealize.ShloMosaic.Lib.StableHlo.Run

set_option maxRecDepth 16384

noncomputable section

namespace Cert.KernelIdeal.Stages

open Cert.KernelIdeal Cert.KernelIdeal.Gen Cert.KernelIdeal.Spec
open Idealize.ShloMosaic Idealize.ShloMosaic.TcCoe Idealize.SL.Sem Idealize.ShloMosaic.StableHlo

variable {F : FTy → Type} [FloatOps F]

/-- The stretch before the first product computes the edges' sources from the edge list, -/
theorem pre_row (X : Valuation τ sig (Elt F)) :
    StableHlo.after (hostOps0 (F := F)) X (Proc.devRef .tc main_v3) = rowOf (F := F) (X (Proc.devRef .tc main_arg1)) := by
  after_results_simp
  rfl

/-- and their targets. -/
theorem pre_col (X : Valuation τ sig (Elt F)) :
    StableHlo.after (hostOps0 (F := F)) X (Proc.devRef .tc main_v6) = colOf (F := F) (X (Proc.devRef .tc main_arg1)) := by
  after_results_simp
  rfl

/-- The stretch between the first and the second product is one layer of the first product. -/
theorem layer1 (X : Valuation τ sig (Elt F)) :
    StableHlo.after (hostOps1_3 (F := F)) (StableHlo.after hostOps1_2 (StableHlo.after hostOps1_1 (StableHlo.after hostOps1 X))) (Proc.devRef .tc main_v47)
      = layer (F := F) (X (Proc.devRef .tc main_v3)) (X (Proc.devRef .tc main_v6)) (X (Proc.devRef .tc main_arg3)) (X (Proc.devRef .tc main_v7)) := by
  after_results_simp
  rfl

/-- The stretch between the second and the third product is one layer of the second product. -/
theorem layer2 (X : Valuation τ sig (Elt F)) :
    StableHlo.after (hostOps2_3 (F := F)) (StableHlo.after hostOps2_2 (StableHlo.after hostOps2_1 (StableHlo.after hostOps2 X))) (Proc.devRef .tc main_v88)
      = layer (F := F) (X (Proc.devRef .tc main_v3)) (X (Proc.devRef .tc main_v6)) (X (Proc.devRef .tc main_arg5)) (X (Proc.devRef .tc main_v48)) := by
  after_results_simp
  rfl

end Cert.KernelIdeal.Stages

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.Matmul0.lean ====
/-
  The first matrix product. The kernel multiplies, at each of its 20 grid points, a block of 5000 rows of `x` by the whole
  of `W1` and writes the 5000 × 128 result back as the same rows of its output array. An entry (r, q) of point `t`'s block
  is the sum over the 256 contracted coordinates `k` of `x[5000·t + r, k] · W1[k, q]` (the roundings to bf16 on the way into
  the product are the identity at the ideal values), which is the entry (5000·t + r, q) of the whole product `x · W1`. The
  20 blocks tile the output's 100000 rows, so after the run the output array IS the whole product.
-/
import proofs.«127704_j86612310492049_1_alg».proof.Proof.Gen.KernelIdeal.Frame
import proofs.«127704_j86612310492049_1_alg».proof.Proof.LibPlainDot
import Idealize.ShloMosaic.Lib.Pipeline.Value

noncomputable section

open scoped BigOperators

namespace Cert.KernelIdeal.Mm0

open Cert.KernelIdeal Cert.KernelIdeal.Gen
open Idealize.ShloMosaic Idealize.ShloMosaic.TcCoe Idealize.SL.Sem Idealize.ShloMosaic.ValueIdx
open Idealize.ShloMosaic.Pipeline (Dat)

/-- The whole product `x · w` of a 100000 × 256 array by a 256 × 128 one, as the host computes it. -/
def prod (x : FVec Ideal ⟨2, ![100000, 256]⟩ .f32) (w : FVec Ideal ⟨2, ![256, 128]⟩ .f32) : FVec Ideal ⟨2, ![100000, 128]⟩ .f32 :=
  Host.dotGeneral (DotDims.plain 100000 256 128) none x w

theorem prod_apply (x : FVec Ideal ⟨2, ![100000, 256]⟩ .f32) (w : FVec Ideal ⟨2, ![256, 128]⟩ .f32) (R : Fin 100000) (q : Fin 128) :
    prod x w (ix2 R q) = ∑ k : Fin 256, x (ix2 R k) * w (ix2 k q) :=
  PlainDot.dotGeneral_apply none .single x w R q

theorem hz2 : (![0, 0] : Fin 2 → Nat) = fun _ => 0 := funext fun a => by fin_cases a <;> rfl

/-- The body's payload at (r, q): the sum over the contracted coordinate of the blocks' products. -/
theorem pay_apply (x0 : Vec Ideal S5000x256 .f32) (x1 : Vec Ideal S256x128 .f32) (r : Fin 5000) (q : Fin 128) :
    k0_pay1 x0 x1 (ix2 r q) = ∑ k : Fin 256, x0 (ix2 r k) * x1 (ix2 k q) := by
  unfold k0_pay1
  exact PlainDot.matmul_zero_apply (M := 5000) (K := 256) (N := 128) none
    (truncf .bf16 x0 bitsLt_bf16_f32) (truncf .bf16 x1 bitsLt_bf16_f32) r q

/-- The printed index maps over the grid: `x`'s and the output's block move with the point along the rows, `W1`'s stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product of the arrays the region finds. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz2]
  simp only [View.ld_unit_zero (S := S5000x256) hz2, View.ld_unit_zero (S := S256x128) hz2]
  obtain ⟨e0, e1, e2, e3, e4, e5⟩ := idx_facts t
  have hN : cfg0.N = 20 := N_0
  have ht : t.val < 20 := hN ▸ t.isLt
  funext j
  obtain ⟨r, q, rfl⟩ : ∃ (r : Fin 5000) (q : Fin 128), j = ix2 r q := ⟨j 0, j 1, eq_ix2 j⟩
  have hr : r.val < 5000 := r.isLt
  have hR : t.val * 5000 + r.val < 100000 := by omega
  show k0_pay1 (iblk0 V c 0 t) (iblk0 V c 1 t) (ix2 r q)
    = prod (V c main_arg0) (V c main_arg2) (((cfg0.win 2).blk t).view.emb (ix2 r q))
  have hemb : ((cfg0.win 2).blk t).view.emb (ix2 r q) = ix2 (⟨t.val * 5000 + r.val, hR⟩ : Fin 100000) q := by
    funext a; apply Fin.ext
    match a with
    | ⟨0, _⟩ => show win0_2.index t (0 : Fin 2) * 5000 + 1 * r.val = t.val * 5000 + r.val; omega
    | ⟨1, _⟩ => show win0_2.index t (1 : Fin 2) * 128 + 1 * q.val = q.val; omega
  rw [hemb, prod_apply, pay_apply]
  refine Finset.sum_congr rfl fun k _ => ?_
  have h0 : iblk0 V c 0 t (ix2 r k) = V c main_arg0 (ix2 (⟨t.val * 5000 + r.val, hR⟩ : Fin 100000) k) := by
    show V c main_arg0 (((cfg0.win 0).blk t).view.emb (ix2 r k)) = _
    refine congrArg (V c main_arg0) ?_
    funext a; apply Fin.ext
    match a with
    | ⟨0, _⟩ => show win0_0.index t (0 : Fin 2) * 5000 + 1 * r.val = t.val * 5000 + r.val; omega
    | ⟨1, _⟩ => show win0_0.index t (1 : Fin 2) * 256 + 1 * k.val = k.val; omega
  have h1 : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 128 + 1 * q.val = q.val; omega
  rw [h0, h1]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v7).slice (win0_2.rect t)).set ↔ _
  rw [View.set_slice_whole, Rect.mem_set_unit]
  exact Iff.rfl

/-- Every row of the output belongs to the block of the point numbered by the row divided by 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  refine ⟨⟨(i 0).val / 5000, hlt⟩, flush0_2 _, ?_⟩
  rw [mem_blk]
  obtain ⟨e0, e1, e2, e3, e4, e5⟩ := idx_facts ⟨(i 0).val / 5000, hlt⟩
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    rw [e5]; omega

/-- After the region the output array is the whole product of the two arrays the region was entered with. -/
theorem final (c : Dev nD) : (dat0 V c).arrAt 2 cfg0.N = prod (V c main_arg0) (V c main_arg2) :=
  (dat0 V c).arrAt_eq_of_cover 2 _ (fun t _ => flushed_eq V c t) (cover)

end Cert.KernelIdeal.Mm0

end
-- ==== Proof.Matmul1.lean ====
/-
  The second matrix product. At each of its 20 grid points the kernel multiplies a block of 5000 rows of the first layer's
  activations by the whole of `W2` and writes the 5000 × 128 result back as the same rows of its output array. An entry (r, q)
  of point `t`'s block is the sum over the 128 contracted coordinates `k` of `h[5000·t + r, k] · W2[k, q]` (the cast of the block
  to its own shape and the roundings to bf16 are the identity at the ideal values): the entry (5000·t + r, q) of the whole
  product. The 20 blocks tile the output's 100000 rows, so after the run the output array IS the whole product.
-/
import proofs.«127704_j86612310492049_1_alg».proof.Proof.Gen.KernelIdeal.Frame
import proofs.«127704_j86612310492049_1_alg».proof.Proof.LibPlainDot
import Idealize.ShloMosaic.Lib.Pipeline.Value

noncomputable section

open scoped BigOperators

namespace Cert.KernelIdeal.Mm1

open Cert.KernelIdeal Cert.KernelIdeal.Gen
open Idealize.ShloMosaic Idealize.ShloMosaic.TcCoe Idealize.SL.Sem Idealize.ShloMosaic.ValueIdx
open Idealize.ShloMosaic.Pipeline (Dat)

/-- The whole product `x · w` of a 100000 × 128 array by a 128 × 128 one, as the host computes it. -/
def prod (x : FVec Ideal ⟨2, ![100000, 128]⟩ .f32) (w : FVec Ideal ⟨2, ![128, 128]⟩ .f32) : FVec Ideal ⟨2, ![100000, 128]⟩ .f32 :=
  Host.dotGeneral (DotDims.plain 100000 128 128) none x w

theorem prod_apply (x : FVec Ideal ⟨2, ![100000, 128]⟩ .f32) (w : FVec Ideal ⟨2, ![128, 128]⟩ .f32) (R : Fin 100000) (q : Fin 128) :
    prod x w (ix2 R q) = ∑ k : Fin 128, x (ix2 R k) * w (ix2 k q) :=
  PlainDot.dotGeneral_apply none .single x w R q

theorem hz2 : (![0, 0] : Fin 2 → Nat) = fun _ => 0 := funext fun a => by fin_cases a <;> rfl

/-- The body's payload at (r, q): the sum over the contracted coordinate of the blocks' products. -/
theorem pay_apply (x0 : Vec Ideal S5000x128 .f32) (x1 : Vec Ideal S128x128 .f32) (r : Fin 5000) (q : Fin 128) :
    k1_pay1 x0 x1 (ix2 r q) = ∑ k : Fin 128, x0 (ix2 r k) * x1 (ix2 k q) := by
  unfold k1_pay1
  refine (PlainDot.matmul_zero_apply (M := 5000) (K := 128) (N := 128) none
    (truncf .bf16 (shapeCast S5000x128 x0 shapeCasts_S5000x128_S5000x128) bitsLt_bf16_f32) (truncf .bf16 x1 bitsLt_bf16_f32) r q).trans ?_
  rw [shapeCast_self]
  rfl

/-- The printed index maps over the grid: the activations' and the output's block move with the point along the rows, `W2`'s stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the whole product of the arrays the region finds. -/
theorem flushed_eq (c : Dev nD) (t : Fin cfg1.N) :
    (dat1 V c).flushed 2 t = ((cfg1.win 2).blk t).view.read (Elt Ideal) (prod (V c main_v47) (V c main_arg4)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128x128) hz2]
  obtain ⟨e0, e1, e2, e3, e4, e5⟩ := idx_facts t
  have hN : cfg1.N = 20 := N_1
  have ht : t.val < 20 := hN ▸ t.isLt
  funext j
  obtain ⟨r, q, rfl⟩ : ∃ (r : Fin 5000) (q : Fin 128), j = ix2 r q := ⟨j 0, j 1, eq_ix2 j⟩
  have hr : r.val < 5000 := r.isLt
  have hR : t.val * 5000 + r.val < 100000 := by omega
  show k1_pay1 (iblk1 V c 0 t) (iblk1 V c 1 t) (ix2 r q)
    = prod (V c main_v47) (V c main_arg4) (((cfg1.win 2).blk t).view.emb (ix2 r q))
  have hemb : ((cfg1.win 2).blk t).view.emb (ix2 r q) = ix2 (⟨t.val * 5000 + r.val, hR⟩ : Fin 100000) q := by
    funext a; apply Fin.ext
    match a with
    | ⟨0, _⟩ => show win1_2.index t (0 : Fin 2) * 5000 + 1 * r.val = t.val * 5000 + r.val; omega
    | ⟨1, _⟩ => show win1_2.index t (1 : Fin 2) * 128 + 1 * q.val = q.val; omega
  rw [hemb, prod_apply, pay_apply]
  refine Finset.sum_congr rfl fun k _ => ?_
  have h0 : iblk1 V c 0 t (ix2 r k) = V c main_v47 (ix2 (⟨t.val * 5000 + r.val, hR⟩ : Fin 100000) k) := by
    show V c main_v47 (((cfg1.win 0).blk t).view.emb (ix2 r k)) = _
    refine congrArg (V c main_v47) ?_
    funext a; apply Fin.ext
    match a with
    | ⟨0, _⟩ => show win1_0.index t (0 : Fin 2) * 5000 + 1 * r.val = t.val * 5000 + r.val; omega
    | ⟨1, _⟩ => show win1_0.index t (1 : Fin 2) * 128 + 1 * k.val = k.val; omega
  have h1 : iblk1 V c 1 t (ix2 k q) = V c main_arg4 (ix2 k q) := by
    show V c main_arg4 (((cfg1.win 1).blk t).view.emb (ix2 k q)) = _
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  rw [h0, h1]

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Every row of the output belongs to the block of the point numbered by the row divided by 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have hlt : (i 0).val / 5000 < cfg1.N := by rw [hN]; omega
  refine ⟨⟨(i 0).val / 5000, hlt⟩, flush1_2 _, ?_⟩
  rw [mem_blk]
  obtain ⟨e0, e1, e2, e3, e4, e5⟩ := idx_facts ⟨(i 0).val / 5000, hlt⟩
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    rw [e5]; omega

/-- After the region the output array is the whole product of the two arrays the region was entered with. -/
theorem final (c : Dev nD) : (dat1 V c).arrAt 2 cfg1.N = prod (V c main_v47) (V c main_arg4) :=
  (dat1 V c).arrAt_eq_of_cover 2 _ (fun t _ => flushed_eq V c t) (cover)

end Cert.KernelIdeal.Mm1

end
-- ==== Proof.SoftmaxSpec.lean ====
/-
  The last stage's value, index by index. The logits of a node are the row of the product of the second layer's
  activations with `W3`, plus the bias: `logits h w b R j = Σ_k h[R, k] · w[k, j] + b[j]`. The log-softmax of a row `z` of
  64 logits subtracts the row's maximum `M` (taken from −∞ upwards, and once more against −∞) and then the logarithm of
  the sum of the exponentials of the shifted row: `lsmRow z j = (z j − M) − log Σ_j' exp (z j' − M)`.
-/
import Idealize.ShloMosaic.PureOps.Ideal.Laws
import Idealize.ShloMosaic.Lib.ValueIdx

noncomputable section

open scoped BigOperators

namespace Cert.LogSoftmax

open Idealize.ShloMosaic Idealize.ShloMosaic.ValueIdx

/-- −∞, as the word both programs print for it. -/
abbrev ninf : EReal := Ideal.ofBits .f32 0xFF800000#32

/-- A row's maximum, as both programs take it. -/
def rowMax (z : Fin 64 → EReal) : EReal := max ninf ((Finset.univ : Finset (Fin 64)).fold max ninf z)

/-- The log-softmax of one row of 64 logits. -/
def lsmRow (z : Fin 64 → EReal) (j : Fin 64) : EReal :=
  (z j - rowMax z) - Ideal.log (∑ j' : Fin 64, Ideal.exp (z j' - rowMax z))

/-- The logits of node `R`. -/
def logits (h : (⟨2, ![100000, 128]⟩ : Shape).Idx → EReal) (w : (⟨2, ![128, 64]⟩ : Shape).Idx → EReal)
    (b : (⟨1, ![64]⟩ : Shape).Idx → EReal) (R : Fin 100000) (j : Fin 64) : EReal :=
  (∑ k : Fin 128, h (ix2 R k) * w (ix2 k j)) + b (ix1 j)

/-- The result array: the log-softmax of every node's logits. -/
def result (h : (⟨2, ![100000, 128]⟩ : Shape).Idx → EReal) (w : (⟨2, ![128, 64]⟩ : Shape).Idx → EReal)
    (b : (⟨1, ![64]⟩ : Shape).Idx → EReal) : (⟨2, ![100000, 64]⟩ : Shape).Idx → EReal :=
  fun i => lsmRow (logits h w b (i 0)) (i 1)

theorem result_apply (h : (⟨2, ![100000, 128]⟩ : Shape).Idx → EReal) (w : (⟨2, ![128, 64]⟩ : Shape).Idx → EReal)
    (b : (⟨1, ![64]⟩ : Shape).Idx → EReal) (R : Fin 100000) (j : Fin 64) :
    result h w b (ix2 R j) = lsmRow (logits h w b R) j := rfl

end Cert.LogSoftmax

end
-- ==== Proof.Final.lean ====
/-
  The last region: the third matrix product, the bias and the log-softmax, inside the kernel. At each of its 20 grid
  points the kernel takes a block of 5000 rows of the second layer's activations, multiplies it by the whole of `W3`, adds
  `b3` along the rows — the block's logits — and takes the log-softmax of each row: the row's maximum from −∞ upwards,
  the shifted row, the logarithm of the sum of its exponentials. Row `r` of point `t`'s block depends on row `5000·t + r` of
  the activations alone and is the log-softmax of that node's logits; the 20 blocks tile the 100000 rows of the result.
-/
import proofs.«127704_j86612310492049_1_alg».proof.Proof.Gen.KernelIdeal.Frame
import proofs.«127704_j86612310492049_1_alg».proof.Proof.LibPlainDot
import proofs.«127704_j86612310492049_1_alg».proof.Proof.SoftmaxSpec
import Idealize.ShloMosaic.Lib.Pipeline.Value

noncomputable section

open scoped BigOperators

namespace Cert.KernelIdeal.Fin

open Cert.KernelIdeal Cert.KernelIdeal.Gen Cert.LogSoftmax
open Idealize.ShloMosaic Idealize.ShloMosaic.TcCoe Idealize.SL.Sem Idealize.ShloMosaic.ValueIdx
open Idealize.ShloMosaic.Pipeline (Dat)

/-! ## The body's arithmetic, stage by stage -/

/-- The block's logits. -/
def logitsVec (x0 : Vec Ideal S5000x128 .f32) (x1 : Vec Ideal S128x64 .f32) (x2 : Vec Ideal S64 .f32) : FVec Ideal S5000x64 .f32 :=
  addf (matmul dot_S5000x128_S128x64_S5000x64_1_0_0_1_n_n none
      (truncf .bf16 (shapeCast S5000x128 x0 shapeCasts_S5000x128_S5000x128) bitsLt_bf16_f32) (truncf .bf16 x1 bitsLt_bf16_f32)
      (constant S5000x64 .f32 0x00000000#32))
    (broadcastTo S5000x64 (shapeCast S1x64 x2 shapeCasts_S64_S1x64) broadcasts_S1x64_S5000x64)

/-- Each row's maximum. -/
def rowMaxVec (L : FVec Ideal S5000x64 .f32) : FVec Ideal S5000 .f32 :=
  maximumf (broadcast S5000 (Scalar.ofBits .f32 0xFF800000#32))
    (multiReduction .maximumf [1] S5000 L 0xFF800000#32 reduces_S5000x64_S5000 (.inl rfl) rfl)

/-- The rows shifted by their maxima. -/
def shiftVec (L : FVec Ideal S5000x64 .f32) : FVec Ideal S5000x64 .f32 :=
  subf L (broadcastTo S5000x64 (shapeCast S5000x1 (rowMaxVec L) shapeCasts_S5000_S5000x1) broadcasts_S5000x1_S5000x64)

/-- Each row's sum of exponentials. -/
def rowSumVec (L : FVec Ideal S5000x64 .f32) : FVec Ideal S5000 .f32 :=
  multiReduction .add [1] S5000 (exp (shiftVec L)) 0x00000000#32 reduces_S5000x64_S5000 (.inl rfl) rfl

/-- The rows' log-softmax. -/
def lsmVec (L : FVec Ideal S5000x64 .f32) : FVec Ideal S5000x64 .f32 :=
  subf (shiftVec L)
    (broadcastTo S5000x64 (log (shapeCast S5000x1 (rowSumVec L) shapeCasts_S5000_S5000x1)) broadcasts_S5000x1_S5000x64)

/-- The body's payload is those stages, composed. -/
theorem pay_eq (x0 : Vec Ideal S5000x128 .f32) (x1 : Vec Ideal S128x64 .f32) (x2 : Vec Ideal S64 .f32) :
    k2_pay1 x0 x1 x2 = lsmVec (logitsVec x0 x1 x2) := rfl

/-! ## The layout operations at an index -/

/-- A vector over the rows, as a column. -/
theorem col_apply (v : FVec Ideal S5000 .f32) (r : Fin 5000) :
    shapeCast S5000x1 v shapeCasts_S5000_S5000x1 (ix2 r (0 : Fin 1)) = v (ix1 r) :=
  shapeCast_apply v shapeCasts_S5000_S5000x1 (ix2 r (0 : Fin 1)) (ix1 r) (by
    rw [Shape.rowMajor_val_one, Shape.rowMajor_val_two]; show r.val = r.val * 1 + 0; omega)

/-- A column spread along the rows. -/
theorem spread_apply (u : FVec Ideal S5000x1 .f32) (r : Fin 5000) (j : Fin 64) :
    broadcastTo S5000x64 u broadcasts_S5000x1_S5000x64 (ix2 r j) = u (ix2 r (0 : Fin 1)) :=
  broadcastTo_apply u broadcasts_S5000x1_S5000x64 (ix2 r j) (ix2 r (0 : Fin 1)) (fun a => by
    match a with
    | ⟨0, _⟩ => rfl
    | ⟨1, _⟩ => rfl)

/-- The bias spread over the rows. -/
theorem bias_apply (x2 : Vec Ideal S64 .f32) (r : Fin 5000) (j : Fin 64) :
    broadcastTo S5000x64 (shapeCast S1x64 x2 shapeCasts_S64_S1x64) broadcasts_S1x64_S5000x64 (ix2 r j) = x2 (ix1 j) := by
  refine (broadcastTo_apply _ broadcasts_S1x64_S5000x64 (ix2 r j) (ix2 (0 : Fin 1) j) (fun a => by
    match a with
    | ⟨0, _⟩ => rfl
    | ⟨1, _⟩ => rfl)).trans ?_
  exact shapeCast_apply x2 shapeCasts_S64_S1x64 (ix2 (0 : Fin 1) j) (ix1 j) (by
    rw [Shape.rowMajor_val_one, Shape.rowMajor_val_two]; show j.val = 0 * 64 + j.val; omega)

/-! ## The stages at an index -/

theorem logitsVec_apply (x0 : Vec Ideal S5000x128 .f32) (x1 : Vec Ideal S128x64 .f32) (x2 : Vec Ideal S64 .f32) (r : Fin 5000) (j : Fin 64) :
    logitsVec x0 x1 x2 (ix2 r j) = (∑ k : Fin 128, x0 (ix2 r k) * x1 (ix2 k j)) + x2 (ix1 j) := by
  unfold logitsVec
  rw [addf_apply, bias_apply]
  refine congrArg (· + x2 (ix1 j)) ?_
  refine (PlainDot.matmul_zero_apply (M := 5000) (K := 128) (N := 64) none
    (truncf .bf16 (shapeCast S5000x128 x0 shapeCasts_S5000x128_S5000x128) bitsLt_bf16_f32) (truncf .bf16 x1 bitsLt_bf16_f32) r j).trans ?_
  rw [shapeCast_self]
  rfl

/-- The index of a block's row `r` at column `j'`, as the reduction over the columns names it. -/
theorem lift_eq (r : Fin 5000) (j' : Fin 64) :
    reduces_S5000x64_S5000.lift (ix1 r) j' = ix2 r j' := by
  funext a
  apply Fin.ext
  match a with
  | ⟨0, _⟩ => rfl
  | ⟨1, _⟩ => rfl

theorem rowMaxVec_apply (L : FVec Ideal S5000x64 .f32) (r : Fin 5000) :
    rowMaxVec L (ix1 r) = rowMax (fun j' => L (ix2 r j')) := by
  unfold rowMaxVec rowMax
  rw [maximumf_apply]
  refine congrArg (max ninf) ?_
  refine (Ideal.multiReduction_maximumf_single L 0xFF800000#32 reduces_S5000x64_S5000 (.inl rfl) rfl (ix1 r)).trans ?_
  show (Finset.univ : Finset (Fin 64)).fold max ninf (L ∘ reduces_S5000x64_S5000.lift (ix1 r)) = _
  refine congrArg (fun f => (Finset.univ : Finset (Fin 64)).fold max ninf f) (funext fun j' => ?_)
  exact congrArg L (lift_eq r j')

theorem shiftVec_apply (L : FVec Ideal S5000x64 .f32) (r : Fin 5000) (j : Fin 64) :
    shiftVec L (ix2 r j) = L (ix2 r j) - rowMax (fun j' => L (ix2 r j')) := by
  unfold shiftVec
  rw [subf_apply, spread_apply, col_apply, rowMaxVec_apply]

theorem rowSumVec_apply (L : FVec Ideal S5000x64 .f32) (r : Fin 5000) :
    rowSumVec L (ix1 r) = ∑ j' : Fin 64, Ideal.exp (L (ix2 r j') - rowMax (fun j'' => L (ix2 r j''))) := by
  unfold rowSumVec
  refine (Ideal.multiReduction_add_single (exp (shiftVec L)) 0x00000000#32 reduces_S5000x64_S5000 (.inl rfl) rfl (ix1 r)).trans ?_
  show (∑ j' : Fin 64, exp (shiftVec L) (reduces_S5000x64_S5000.lift (ix1 r) j')) = _
  refine Finset.sum_congr rfl fun j' _ => ?_
  rw [lift_eq]
  show Ideal.exp (shiftVec L (ix2 r j')) = _
  rw [shiftVec_apply]

theorem lsmVec_apply (L : FVec Ideal S5000x64 .f32) (r : Fin 5000) (j : Fin 64) :
    lsmVec L (ix2 r j) = lsmRow (fun j' => L (ix2 r j')) j := by
  unfold lsmVec lsmRow
  rw [subf_apply, spread_apply, shiftVec_apply]
  refine congrArg (L (ix2 r j) - rowMax (fun j' => L (ix2 r j')) - ·) ?_
  show Ideal.log (shapeCast S5000x1 (rowSumVec L) shapeCasts_S5000_S5000x1 (ix2 r (0 : Fin 1))) = _
  rw [col_apply, rowSumVec_apply]

/-- The body's payload at (r, j): the log-softmax of row `r`'s logits. -/
theorem pay_apply (x0 : Vec Ideal S5000x128 .f32) (x1 : Vec Ideal S128x64 .f32) (x2 : Vec Ideal S64 .f32) (r : Fin 5000) (j : Fin 64) :
    k2_pay1 x0 x1 x2 (ix2 r j) = lsmRow (fun j' => (∑ k : Fin 128, x0 (ix2 r k) * x1 (ix2 k j')) + x2 (ix1 j')) j := by
  rw [pay_eq, lsmVec_apply]
  exact congrArg (fun z => lsmRow z j) (funext fun j' => logitsVec_apply x0 x1 x2 r j')

/-! ## From the blocks to the result array -/

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the activations' and the result's block move with the point along the rows,
    `W3`'s and `b3`'s stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point `t` writes back is block `t` of the log-softmax of the logits of the arrays the region finds. -/
theorem flushed_eq (c : Dev nD) (t : Fin cfg2.N) :
    (dat2 V c).flushed 3 t
      = ((cfg2.win 3).blk t).view.read (Elt Ideal) (result (V c main_v88) (V c main_arg6) (V c main_arg7)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128x64) hz2, View.ld_unit_zero (S := S64) hz1]
  obtain ⟨e0, e1, e2, e3, e4, e5, e6⟩ := idx_facts t
  have hN : cfg2.N = 20 := N_2
  have ht : t.val < 20 := hN ▸ t.isLt
  funext j
  obtain ⟨r, q, rfl⟩ : ∃ (r : Fin 5000) (q : Fin 64), j = ix2 r q := ⟨j 0, j 1, eq_ix2 j⟩
  have hr : r.val < 5000 := r.isLt
  have hR : t.val * 5000 + r.val < 100000 := by omega
  show k2_pay1 (iblk2 V c 0 t) (iblk2 V c 1 t) (iblk2 V c 2 t) (ix2 r q)
    = result (V c main_v88) (V c main_arg6) (V c main_arg7) (((cfg2.win 3).blk t).view.emb (ix2 r q))
  have hemb : ((cfg2.win 3).blk t).view.emb (ix2 r q) = ix2 (⟨t.val * 5000 + r.val, hR⟩ : Fin 100000) q := by
    funext a; apply Fin.ext
    match a with
    | ⟨0, _⟩ => show win2_3.index t (0 : Fin 2) * 5000 + 1 * r.val = t.val * 5000 + r.val; omega
    | ⟨1, _⟩ => show win2_3.index t (1 : Fin 2) * 64 + 1 * q.val = q.val; omega
  have h0 : ∀ k : Fin 128, iblk2 V c 0 t (ix2 r k) = V c main_v88 (ix2 (⟨t.val * 5000 + r.val, hR⟩ : Fin 100000) k) := fun k => by
    show V c main_v88 (((cfg2.win 0).blk t).view.emb (ix2 r k)) = _
    refine congrArg (V c main_v88) ?_
    funext a; apply Fin.ext
    match a with
    | ⟨0, _⟩ => show win2_0.index t (0 : Fin 2) * 5000 + 1 * r.val = t.val * 5000 + r.val; omega
    | ⟨1, _⟩ => show win2_0.index t (1 : Fin 2) * 128 + 1 * k.val = k.val; omega
  have h1 : ∀ (k : Fin 128) (j' : Fin 64), iblk2 V c 1 t (ix2 k j') = V c main_arg6 (ix2 k j') := fun k j' => by
    show V c main_arg6 (((cfg2.win 1).blk t).view.emb (ix2 k j')) = _
    refine congrArg (V c main_arg6) ?_
    funext a; apply Fin.ext
    match a with
    | ⟨0, _⟩ => show win2_1.index t (0 : Fin 2) * 128 + 1 * k.val = k.val; omega
    | ⟨1, _⟩ => show win2_1.index t (1 : Fin 2) * 64 + 1 * j'.val = j'.val; omega
  have h2 : ∀ j' : Fin 64, iblk2 V c 2 t (ix1 j') = V c main_arg7 (ix1 j') := fun j' => by
    show V c main_arg7 (((cfg2.win 2).blk t).view.emb (ix1 j')) = _
    refine congrArg (V c main_arg7) ?_
    funext a; apply Fin.ext
    match a with
    | ⟨0, _⟩ => show win2_2.index t (0 : Fin 1) * 64 + 1 * j'.val = j'.val; omega
  rw [hemb, result_apply, pay_apply]
  refine congrArg (fun z => lsmRow z q) (funext fun j' => ?_)
  unfold logits
  rw [h2 j']
  refine congrArg (· + V c main_arg7 (ix1 j')) (Finset.sum_congr rfl fun k _ => ?_)
  rw [h0 k, h1 k j']

/-- An index of the result array is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v89).slice (win2_3.rect t)).set ↔ _
  rw [View.set_slice_whole, Rect.mem_set_unit]
  exact Iff.rfl

/-- Every row of the result belongs to the block of the point numbered by the row divided by 5000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  have hlt : (i 0).val / 5000 < cfg2.N := by rw [hN]; omega
  refine ⟨⟨(i 0).val / 5000, hlt⟩, flush2_3 _, ?_⟩
  rw [mem_blk]
  obtain ⟨e0, e1, e2, e3, e4, e5, e6⟩ := idx_facts ⟨(i 0).val / 5000, hlt⟩
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    rw [e5]; show (i 0).val / 5000 * 5000 ≤ (i 0).val ∧ (i 0).val < (i 0).val / 5000 * 5000 + 5000; omega
  | ⟨1, _⟩ =>
    show win2_3.index ⟨(i 0).val / 5000, hlt⟩ (1 : Fin 2) * 64 ≤ (i 1).val ∧ (i 1).val < win2_3.index ⟨(i 0).val / 5000, hlt⟩ (1 : Fin 2) * 64 + 64
    rw [e6]; omega

/-- After the region the result array is the log-softmax of the logits of the arrays the region was entered with. -/
theorem final (c : Dev nD) :
    (dat2 V c).arrAt 3 cfg2.N = result (V c main_v88) (V c main_arg6) (V c main_arg7) :=
  (dat2 V c).arrAt_eq_of_cover 3 _ (fun t _ => flushed_eq V c t) (cover)

end Cert.KernelIdeal.Fin

end
-- ==== Proof.KernelValue.lean ====
/-
  The idealized kernel's result as one function of its arguments. Reading the boundaries of its run backwards: the result
  array is what the last region leaves, the log-softmax of the logits of the second layer's activations (`Fin.final`);
  those activations are one layer (`Stages.layer2`) of the second product (`Mm1.final`) of the first layer's activations,
  which are one layer (`Stages.layer1`) of the first product (`Mm0.final`) of `x` and `W1`. The edges' sources and targets are
  computed from the edge list before the first product; no stretch and no region writes them afterwards, nor an argument.
-/
import proofs.«127704_j86612310492049_1_alg».proof.Proof.KernelStages
import proofs.«127704_j86612310492049_1_alg».proof.Proof.Matmul0
import proofs.«127704_j86612310492049_1_alg».proof.Proof.Matmul1
import proofs.«127704_j86612310492049_1_alg».proof.Proof.Final

set_option maxRecDepth 16384

noncomputable section

namespace Cert.KernelIdeal.Whole

open Cert.KernelIdeal Cert.KernelIdeal.Gen Cert.KernelIdeal.Spec Cert.LogSoftmax
open Idealize.ShloMosaic Idealize.ShloMosaic.TcCoe Idealize.SL.Sem Idealize.ShloMosaic.StableHlo

/-! ## What the host stretches leave alone -/

section Keep
variable {F : FTy → Type} [FloatOps F] (X : Valuation τ sig (Elt F))

theorem keep0_arg0 : StableHlo.after (hostOps0 (F := F)) X (Proc.devRef .tc main_arg0) = X (Proc.devRef .tc main_arg0) := by after_results_simp
theorem keep0_arg2 : StableHlo.after (hostOps0 (F := F)) X (Proc.devRef .tc main_arg2) = X (Proc.devRef .tc main_arg2) := by after_results_simp
theorem keep0_arg3 : StableHlo.after (hostOps0 (F := F)) X (Proc.devRef .tc main_arg3) = X (Proc.devRef .tc main_arg3) := by after_results_simp
theorem keep0_arg4 : StableHlo.after (hostOps0 (F := F)) X (Proc.devRef .tc main_arg4) = X (Proc.devRef .tc main_arg4) := by after_results_simp
theorem keep0_arg5 : StableHlo.after (hostOps0 (F := F)) X (Proc.devRef .tc main_arg5) = X (Proc.devRef .tc main_arg5) := by after_results_simp

theorem keep1_v3 : StableHlo.after (hostOps1_3 (F := F)) (StableHlo.after hostOps1_2 (StableHlo.after hostOps1_1 (StableHlo.after hostOps1 X))) (Proc.devRef .tc main_v3) = X (Proc.devRef .tc main_v3) := by after_results_simp
theorem keep1_v6 : StableHlo.after (hostOps1_3 (F := F)) (StableHlo.after hostOps1_2 (StableHlo.after hostOps1_1 (StableHlo.after hostOps1 X))) (Proc.devRef .tc main_v6) = X (Proc.devRef .tc main_v6) := by after_results_simp
theorem keep1_arg4 : StableHlo.after (hostOps1_3 (F := F)) (StableHlo.after hostOps1_2 (StableHlo.after hostOps1_1 (StableHlo.after hostOps1 X))) (Proc.devRef .tc main_arg4) = X (Proc.devRef .tc main_arg4) := by after_results_simp
theorem keep1_arg5 : StableHlo.after (hostOps1_3 (F := F)) (StableHlo.after hostOps1_2 (StableHlo.after hostOps1_1 (StableHlo.after hostOps1 X))) (Proc.devRef .tc main_arg5) = X (Proc.devRef .tc main_arg5) := by after_results_simp

end Keep

/-! ## The boundaries' contents, at the ideal values -/

variable (m : (ℓ : Loc nD τ sig) → Buf (Elt Ideal) ℓ) (ρ : Dev nD → PrngReg) (c : Dev nD)

/-- At the first product's entry: the arguments as launched, the edges' sources and targets computed. -/
theorem W1_arg0 : W1 m ρ c (Proc.devRef .tc main_arg0) = m ((c.tc : Thread nD τ).loc main_arg0) := keep0_arg0 (W0 m ρ c)
theorem W1_arg2 : W1 m ρ c (Proc.devRef .tc main_arg2) = m ((c.tc : Thread nD τ).loc main_arg2) := keep0_arg2 (W0 m ρ c)
theorem W1_arg3 : W1 m ρ c (Proc.devRef .tc main_arg3) = m ((c.tc : Thread nD τ).loc main_arg3) := keep0_arg3 (W0 m ρ c)
theorem W1_arg4 : W1 m ρ c (Proc.devRef .tc main_arg4) = m ((c.tc : Thread nD τ).loc main_arg4) := keep0_arg4 (W0 m ρ c)
theorem W1_arg5 : W1 m ρ c (Proc.devRef .tc main_arg5) = m ((c.tc : Thread nD τ).loc main_arg5) := keep0_arg5 (W0 m ρ c)
theorem W1_v3 : W1 m ρ c (Proc.devRef .tc main_v3) = rowOf (m ((c.tc : Thread nD τ).loc main_arg1)) := Stages.pre_row (W0 m ρ c)
theorem W1_v6 : W1 m ρ c (Proc.devRef .tc main_v6) = colOf (m ((c.tc : Thread nD τ).loc main_arg1)) := Stages.pre_col (W0 m ρ c)

/-- The first product. -/
theorem W2_v7 : W2 m ρ c (Proc.devRef .tc main_v7)
    = Mm0.prod (m ((c.tc : Thread nD τ).loc main_arg0)) (m ((c.tc : Thread nD τ).loc main_arg2)) := by
  refine (W2_arr m ρ c 2).trans ((Mm0.final (V1 m ρ) c).trans ?_)
  show Mm0.prod (W1 m ρ c (Proc.devRef .tc main_arg0)) (W1 m ρ c (Proc.devRef .tc main_arg2)) = _
  rw [W1_arg0, W1_arg2]

/-- The first layer's activations. -/
theorem W6_v47 : W6 m ρ c (Proc.devRef .tc main_v47)
    = layer (rowOf (m ((c.tc : Thread nD τ).loc main_arg1))) (colOf (m ((c.tc : Thread nD τ).loc main_arg1)))
        (m ((c.tc : Thread nD τ).loc main_arg3))
        (Mm0.prod (m ((c.tc : Thread nD τ).loc main_arg0)) (m ((c.tc : Thread nD τ).loc main_arg2))) := by
  refine (Stages.layer1 (W2 m ρ c)).trans ?_
  rw [W2_v7, W2_of_ne m ρ c main_v3 (by decide), W2_of_ne m ρ c main_v6 (by decide), W2_of_ne m ρ c main_arg3 (by decide),
    W1_v3, W1_v6, W1_arg3]

theorem W6_v3 : W6 m ρ c (Proc.devRef .tc main_v3) = rowOf (m ((c.tc : Thread nD τ).loc main_arg1)) :=
  (keep1_v3 (W2 m ρ c)).trans ((W2_of_ne m ρ c main_v3 (by decide)).trans (W1_v3 m ρ c))
theorem W6_v6 : W6 m ρ c (Proc.devRef .tc main_v6) = colOf (m ((c.tc : Thread nD τ).loc main_arg1)) :=
  (keep1_v6 (W2 m ρ c)).trans ((W2_of_ne m ρ c main_v6 (by decide)).trans (W1_v6 m ρ c))
theorem W6_arg4 : W6 m ρ c (Proc.devRef .tc main_arg4) = m ((c.tc : Thread nD τ).loc main_arg4) :=
  (keep1_arg4 (W2 m ρ c)).trans ((W2_of_ne m ρ c main_arg4 (by decide)).trans (W1_arg4 m ρ c))
theorem W6_arg5 : W6 m ρ c (Proc.devRef .tc main_arg5) = m ((c.tc : Thread nD τ).loc main_arg5) :=
  (keep1_arg5 (W2 m ρ c)).trans ((W2_of_ne m ρ c main_arg5 (by decide)).trans (W1_arg5 m ρ c))

/-- The second product. -/
theorem W7_v48 : W7 m ρ c (Proc.devRef .tc main_v48)
    = Mm1.prod (layer (rowOf (m ((c.tc : Thread nD τ).loc main_arg1))) (colOf (m ((c.tc : Thread nD τ).loc main_arg1)))
        (m ((c.tc : Thread nD τ).loc main_arg3))
        (Mm0.prod (m ((c.tc : Thread nD τ).loc main_arg0)) (m ((c.tc : Thread nD τ).loc main_arg2))))
      (m ((c.tc : Thread nD τ).loc main_arg4)) := by
  refine (W7_arr m ρ c 2).trans ((Mm1.final (V6 m ρ) c).trans ?_)
  show Mm1.prod (W6 m ρ c (Proc.devRef .tc main_v47)) (W6 m ρ c (Proc.devRef .tc main_arg4)) = _
  rw [W6_v47, W6_arg4]

/-- The second layer's activations. -/
theorem W11_v88 : W11 m ρ c (Proc.devRef .tc main_v88)
    = layer (rowOf (m ((c.tc : Thread nD τ).loc main_arg1))) (colOf (m ((c.tc : Thread nD τ).loc main_arg1)))
        (m ((c.tc : Thread nD τ).loc main_arg5))
        (Mm1.prod (layer (rowOf (m ((c.tc : Thread nD τ).loc main_arg1))) (colOf (m ((c.tc : Thread nD τ).loc main_arg1)))
            (m ((c.tc : Thread nD τ).loc main_arg3))
            (Mm0.prod (m ((c.tc : Thread nD τ).loc main_arg0)) (m ((c.tc : Thread nD τ).loc main_arg2))))
          (m ((c.tc : Thread nD τ).loc main_arg4))) := by
  refine (Stages.layer2 (W7 m ρ c)).trans ?_
  rw [W7_v48, W7_of_ne m ρ c main_v3 (by decide), W7_of_ne m ρ c main_v6 (by decide), W7_of_ne m ρ c main_arg5 (by decide),
    W6_v3, W6_v6, W6_arg5]

theorem W11_arg6 : W11 m ρ c (Proc.devRef .tc main_arg6) = m ((c.tc : Thread nD τ).loc main_arg6) :=
  ((W12_arr m ρ c 1).trans (((dat2 (V11 m ρ) c).arrAt_in 1 rfl _).trans (A_eq2 (V11 m ρ) c 1))).symm.trans (W12_main_arg6 m ρ c)
theorem W11_arg7 : W11 m ρ c (Proc.devRef .tc main_arg7) = m ((c.tc : Thread nD τ).loc main_arg7) :=
  ((W12_arr m ρ c 2).trans (((dat2 (V11 m ρ) c).arrAt_in 2 rfl _).trans (A_eq2 (V11 m ρ) c 2))).symm.trans (W12_main_arg7 m ρ c)

/-- THE RESULT ARRAY after the run, as one function of the arguments. -/
theorem W12_v89 : W12 m ρ c (Proc.devRef .tc main_v89)
    = result
        (layer (rowOf (m ((c.tc : Thread nD τ).loc main_arg1))) (colOf (m ((c.tc : Thread nD τ).loc main_arg1)))
          (m ((c.tc : Thread nD τ).loc main_arg5))
          (Mm1.prod (layer (rowOf (m ((c.tc : Thread nD τ).loc main_arg1))) (colOf (m ((c.tc : Thread nD τ).loc main_arg1)))
              (m ((c.tc : Thread nD τ).loc main_arg3))
              (Mm0.prod (m ((c.tc : Thread nD τ).loc main_arg0)) (m ((c.tc : Thread nD τ).loc main_arg2))))
            (m ((c.tc : Thread nD τ).loc main_arg4))))
        (m ((c.tc : Thread nD τ).loc main_arg6)) (m ((c.tc : Thread nD τ).loc main_arg7)) := by
  refine (W12_arr m ρ c 3).trans ((Fin.final (V11 m ρ) c).trans ?_)
  show result (W11 m ρ c (Proc.devRef .tc main_v88)) (W11 m ρ c (Proc.devRef .tc main_arg6)) (W11 m ρ c (Proc.devRef .tc main_arg7)) = _
  rw [W11_v88, W11_arg6, W11_arg7]

end Cert.KernelIdeal.Whole

end
-- ==== Proof.RefTail.lean ====
/-
  The reference's last stage at an index. After the third product `p` the host adds the bias along the rows — the logits —
  and takes the log-softmax of each row: the row's maximum from −∞ upwards (and once more against −∞), the shifted row,
  the logarithm of the sum of its exponentials. At (R, j) this is the log-softmax of node `R`'s 64 logits, at `j`.
-/
import proofs.«127704_j86612310492049_1_alg».proof.Proof.Gen.ReferenceIdeal
import proofs.«127704_j86612310492049_1_alg».proof.Proof.LibPlainDot
import proofs.«127704_j86612310492049_1_alg».proof.Proof.SoftmaxSpec
import Idealize.ShloMosaic.Lib.Pipeline.Value

noncomputable section

open scoped BigOperators

namespace Cert.ReferenceIdeal.Tail

open Cert.ReferenceIdeal Cert.ReferenceIdeal.Facts₀ Cert.LogSoftmax
open Idealize.ShloMosaic Idealize.ShloMosaic.ValueIdx

/-! ## The stage's operations, composed -/

section Terms
variable {F : FTy → Type} [FloatOps F]

/-- The logits: the product plus the bias along the rows. -/
def zOf (p : FVec F S100000x64 .f32) (b : FVec F S64 .f32) : FVec F S100000x64 .f32 :=
  addf p (broadcastInDim S100000x64 ![0, 1] bcast_S1x64_S100000x64_0_1 (broadcastInDim S1x64 ![1] bcast_S64_S1x64_1 b))

/-- Each row's maximum. -/
def mxOf (z : FVec F S100000x64 .f32) : FVec F S100000 .f32 :=
  maximumf (broadcastInDim S100000 ![] bcast_S_S100000 (constant S_ .f32 0xFF800000#32))
    (Host.reduce FloatOps.maximumf z (constant S_ .f32 0xFF800000#32) reducesTo_S100000x64_S100000_d1 h_S_)

/-- The rows shifted by their maxima. -/
def shOf (z : FVec F S100000x64 .f32) : FVec F S100000x64 .f32 :=
  subf z (broadcastInDim S100000x64 ![0, 1] bcast_S100000x1_S100000x64_0_1
    (broadcastInDim S100000x1 ![0] bcast_S100000_S100000x1_0 (mxOf z)))

/-- Each row's sum of exponentials. -/
def smOf (z : FVec F S100000x64 .f32) : FVec F S100000 .f32 :=
  Host.reduceAdd (Host.exp (shOf z)) (constant S_ .f32 0x00000000#32) reducesTo_S100000x64_S100000_d1 h_S_

/-- The rows' log-softmax. -/
def lsmOf (z : FVec F S100000x64 .f32) : FVec F S100000x64 .f32 :=
  subf (shOf z) (broadcastInDim S100000x64 ![0, 1] bcast_S100000x1_S100000x64_0_1
    (Host.log (broadcastInDim S100000x1 ![0] bcast_S100000_S100000x1_0 (smOf z))))

/-- The whole stage. -/
def tailOf (p : FVec F S100000x64 .f32) (b : FVec F S64 .f32) : FVec F S100000x64 .f32 := lsmOf (zOf p b)

end Terms

/-! ## The layout operations at an index -/

theorem bias_apply (b : FVec Ideal S64 .f32) (R : Fin 100000) (j : Fin 64) :
    broadcastInDim S100000x64 ![0, 1] bcast_S1x64_S100000x64_0_1 (broadcastInDim S1x64 ![1] bcast_S64_S1x64_1 b) (ix2 R j)
      = b (ix1 j) := by
  refine (broadcastInDim_apply ![0, 1] bcast_S1x64_S100000x64_0_1 _ (ix2 R j) (ix2 (0 : Fin 1) j) (fun a => by
    match a with
    | ⟨0, _⟩ => rfl
    | ⟨1, _⟩ => rfl)).trans ?_
  exact broadcastInDim_apply ![1] bcast_S64_S1x64_1 b (ix2 (0 : Fin 1) j) (ix1 j) (fun a => by
    match a with
    | ⟨0, _⟩ => rfl)

/-- A vector over the rows spread along them. -/
theorem spread_apply (u : FVec Ideal S100000x1 .f32) (R : Fin 100000) (j : Fin 64) :
    broadcastInDim S100000x64 ![0, 1] bcast_S100000x1_S100000x64_0_1 u (ix2 R j) = u (ix2 R (0 : Fin 1)) :=
  broadcastInDim_apply ![0, 1] bcast_S100000x1_S100000x64_0_1 u (ix2 R j) (ix2 R (0 : Fin 1)) (fun a => by
    match a with
    | ⟨0, _⟩ => rfl
    | ⟨1, _⟩ => rfl)

theorem col_apply (v : FVec Ideal S100000 .f32) (R : Fin 100000) :
    broadcastInDim S100000x1 ![0] bcast_S100000_S100000x1_0 v (ix2 R (0 : Fin 1)) = v (ix1 R) :=
  broadcastInDim_apply ![0] bcast_S100000_S100000x1_0 v (ix2 R (0 : Fin 1)) (ix1 R) (fun a => by
    match a with
    | ⟨0, _⟩ => rfl)

theorem ninf_apply (R : Fin 100000) :
    broadcastInDim S100000 ![] bcast_S_S100000 (constant (F := Ideal) S_ .f32 0xFF800000#32) (ix1 R) = ninf :=
  broadcastInDim_apply ![] bcast_S_S100000 (constant (F := Ideal) S_ .f32 0xFF800000#32) (ix1 R) (fun a => a.elim0) (fun a => a.elim0)

/-- The reduction over the columns, as a fact about the shapes. -/
theorem hred : S100000x64.Reduces [1] S100000 := by decide

theorem lift_eq (R : Fin 100000) (j' : Fin 64) : hred.lift (ix1 R) j' = ix2 R j' := by
  funext a
  apply Fin.ext
  match a with
  | ⟨0, _⟩ => rfl
  | ⟨1, _⟩ => rfl

/-! ## The stages at an index -/

theorem hostLog_apply {s : Shape} (u : FVec Ideal s .f32) (i : s.Idx) : Host.log u i = Ideal.log (u i) := rfl
theorem hostExp_apply {s : Shape} (u : FVec Ideal s .f32) (i : s.Idx) : Host.exp u i = Ideal.exp (u i) := rfl

theorem zOf_apply (p : FVec Ideal S100000x64 .f32) (b : FVec Ideal S64 .f32) (R : Fin 100000) (j : Fin 64) :
    zOf p b (ix2 R j) = p (ix2 R j) + b (ix1 j) := by
  unfold zOf
  rw [addf_apply, bias_apply]

theorem mxOf_apply (z : FVec Ideal S100000x64 .f32) (R : Fin 100000) :
    mxOf z (ix1 R) = rowMax (fun j' => z (ix2 R j')) := by
  unfold mxOf rowMax
  rw [maximumf_apply, ninf_apply]
  refine congrArg (max ninf) ?_
  refine (Host.reduce_eq_fold_single FloatOps.maximumf z (constant (F := Ideal) S_ .f32 0xFF800000#32)
    reducesTo_S100000x64_S100000_d1 hred h_S_ (ix1 R)).trans ?_
  show (Finset.univ : Finset (Fin 64)).fold max ninf (z ∘ hred.lift (ix1 R)) = _
  refine congrArg (fun f => (Finset.univ : Finset (Fin 64)).fold max ninf f) (funext fun j' => ?_)
  exact congrArg z (lift_eq R j')

theorem shOf_apply (z : FVec Ideal S100000x64 .f32) (R : Fin 100000) (j : Fin 64) :
    shOf z (ix2 R j) = z (ix2 R j) - rowMax (fun j' => z (ix2 R j')) := by
  unfold shOf
  rw [subf_apply, spread_apply, col_apply, mxOf_apply]

theorem smOf_apply (z : FVec Ideal S100000x64 .f32) (R : Fin 100000) :
    smOf z (ix1 R) = ∑ j' : Fin 64, Ideal.exp (z (ix2 R j') - rowMax (fun j'' => z (ix2 R j''))) := by
  unfold smOf
  refine (Ideal.hostReduceAdd_single reducesTo_S100000x64_S100000_d1 hred (Host.exp (shOf z))
    (Ideal.ofBits .f32 0x00000000#32) (ix1 R)).trans ?_
  rw [Ideal.ofBits_zero_f32, zero_add]
  show (∑ j' : Fin 64, Host.exp (shOf z) (hred.lift (ix1 R) j')) = _
  refine Finset.sum_congr rfl fun j' _ => ?_
  rw [lift_eq, hostExp_apply, shOf_apply]

theorem lsmOf_apply (z : FVec Ideal S100000x64 .f32) (R : Fin 100000) (j : Fin 64) :
    lsmOf z (ix2 R j) = lsmRow (fun j' => z (ix2 R j')) j := by
  unfold lsmOf lsmRow
  rw [subf_apply, spread_apply, shOf_apply]
  refine congrArg (z (ix2 R j) - rowMax (fun j' => z (ix2 R j')) - ·) ?_
  rw [hostLog_apply, col_apply, smOf_apply]

/-- The whole product of a 100000 × 128 array by a 128 × 64 one, as the host computes it. -/
def prod (x : FVec Ideal ⟨2, ![100000, 128]⟩ .f32) (w : FVec Ideal ⟨2, ![128, 64]⟩ .f32) : FVec Ideal ⟨2, ![100000, 64]⟩ .f32 :=
  Host.dotGeneral (DotDims.plain 100000 128 64) none x w

/-- THE LAST STAGE of the third product is the log-softmax of the logits. -/
theorem tail_eq (h : FVec Ideal ⟨2, ![100000, 128]⟩ .f32) (w : FVec Ideal ⟨2, ![128, 64]⟩ .f32) (b : FVec Ideal S64 .f32) :
    tailOf (prod h w) b = result h w b := by
  funext i
  obtain ⟨R, j, rfl⟩ : ∃ (R : Fin 100000) (j : Fin 64), i = ix2 R j := ⟨i 0, i 1, eq_ix2 i⟩
  rw [result_apply]
  unfold tailOf
  rw [lsmOf_apply]
  refine congrArg (fun z => lsmRow z j) (funext fun j' => ?_)
  rw [zOf_apply]
  unfold logits prod
  exact congrArg (· + b (ix1 j')) (PlainDot.dotGeneral_apply none .single h w R j')

end Cert.ReferenceIdeal.Tail

end
-- ==== Proof.RefStages.lean ====
/-
  The idealized reference's program, read stage by stage. Its 138 host operations are, in order: the edges' sources and
  targets from the edge list (7 operations); the first product; one graph-convolution layer (55 operations); the second
  product; the same layer again (55 operations); the third product; and the bias with the log-softmax (18 operations). Each
  stage is read off the operations' fold as a function of the buffers it finds — the layer's the same function
  (`Spec.layer`) the kernel's host stretches compute, each product the plain product of its two operands — and no operation
  writes an argument array, nor the sources and targets once computed. Composed, the result array is the log-softmax of the
  logits of two layers over the products: the function the kernel's result array holds.
-/
import proofs.«127704_j86612310492049_1_alg».proof.Proof.RefRun
import proofs.«127704_j86612310492049_1_alg».proof.Proof.RefTail
import proofs.«127704_j86612310492049_1_alg».proof.Proof.Layer
import proofs.«127704_j86612310492049_1_alg».proof.Proof.Matmul0
import proofs.«127704_j86612310492049_1_alg».proof.Proof.Matmul1
import Idealize.ShloMosaic.Lib.StableHlo.Run

set_option maxRecDepth 16384

noncomputable section

namespace Cert.ReferenceIdeal.Stages

open Cert.ReferenceIdeal Cert.ReferenceIdeal.Gen Cert.ReferenceIdeal.ValueP Cert.LogSoftmax
open Idealize.ShloMosaic Idealize.ShloMosaic.TcCoe Idealize.SL.Sem Idealize.ShloMosaic.StableHlo
open Cert.KernelIdeal.Spec (rowOf colOf layer)

/-! ## Folds over a split list -/

section Split
variable {F : FTy → Type} [FloatOps F]

/-- The fold over a list of operations splits at any position. -/
theorem after_append (A B : List (HloOp τ sig (Elt F))) (X : Valuation τ sig (Elt F)) :
    StableHlo.after (A ++ B) X = StableHlo.after B (StableHlo.after A X) := by
  induction A generalizing X with
  | nil => rfl
  | cons op A ih => simp only [List.cons_append, after_cons, ih]

theorem after_split (n : Nat) (l : List (HloOp τ sig (Elt F))) (X : Valuation τ sig (Elt F)) :
    StableHlo.after l X = StableHlo.after (l.drop n) (StableHlo.after (l.take n) X) := by
  rw [← after_append, List.take_append_drop]

/-- The fold over the first `k + n` operations is the fold over the next `n` after the first `k`. -/
theorem after_take_add (k n : Nat) (l : List (HloOp τ sig (Elt F))) (X : Valuation τ sig (Elt F)) :
    StableHlo.after (l.take (k + n)) X = StableHlo.after ((l.drop k).take n) (StableHlo.after (l.take k) X) := by
  rw [List.take_add, after_append]

end Split

/-! ## The stages, from any contents -/

section Stages
variable {F : FTy → Type} [FloatOps F] (Y : Valuation τ sig (Elt F))

/-- One layer, between the first and the second product. -/
theorem lay1 :
    StableHlo.after (((ops (F := F)).drop 8).take 55) Y (Proc.devRef .tc main_v47)
      = layer (F := F) (Y (Proc.devRef .tc main_v3)) (Y (Proc.devRef .tc main_v6))
          (Y (Proc.devRef .tc main_arg3)) (Y (Proc.devRef .tc main_v7)) := by
  simp only [ops, List.drop_succ_cons, List.drop_zero, List.take_succ_cons, List.take_zero]
  after_results_simp
  rfl

/-- One layer, between the second and the third product. -/
theorem lay2 :
    StableHlo.after (((ops (F := F)).drop 64).take 55) Y (Proc.devRef .tc main_v88)
      = layer (F := F) (Y (Proc.devRef .tc main_v3)) (Y (Proc.devRef .tc main_v6))
          (Y (Proc.devRef .tc main_arg5)) (Y (Proc.devRef .tc main_v48)) := by
  simp only [ops, List.drop_succ_cons, List.drop_zero, List.take_succ_cons, List.take_zero]
  after_results_simp
  rfl

/-- A value carried to a buffer's type and back is itself. -/
theorem ofBuf_toBuf {T : BufTy} (x : TRef sig T) (v : T.Contents (Elt F)) : x.ofBuf (x.toBuf v) = v := by
  obtain ⟨r, h, h1, h2⟩ := x
  subst h
  rfl

/-- The logits, after the third product. -/
theorem tailA :
    StableHlo.after (((ops (F := F)).drop 120).take 3) Y (Proc.devRef .tc main_v92)
      = Tail.zOf (F := F) (Y (Proc.devRef .tc main_v89)) (Y (Proc.devRef .tc main_arg7)) := by
  simp only [ops, List.drop_succ_cons, List.drop_zero, List.take_succ_cons, List.take_zero]
  after_results_simp
  rfl

/-- The log-softmax of the logits. -/
theorem tailB :
    StableHlo.after ((ops (F := F)).drop 123) Y (Proc.devRef .tc main_v93)
      = Tail.lsmOf (F := F) (Y (Proc.devRef .tc main_v92)) := by
  simp only [ops, List.drop_succ_cons, List.drop_zero]
  after_results_simp
  simp only [ofBuf_toBuf]
  unfold Tail.lsmOf Tail.shOf Tail.smOf Tail.mxOf
  rfl

end Stages

section Products
variable (Y : Valuation τ sig (Elt Ideal))

theorem dotA :
    StableHlo.after (((ops (F := Ideal)).drop 7).take 1) Y (Proc.devRef .tc main_v7)
      = Cert.KernelIdeal.Mm0.prod (Y (Proc.devRef .tc main_arg0)) (Y (Proc.devRef .tc main_arg2)) := by
  simp only [ops, List.drop_succ_cons, List.drop_zero, List.take_succ_cons, List.take_zero]
  after_results_simp
  rfl

theorem dotB :
    StableHlo.after (((ops (F := Ideal)).drop 63).take 1) Y (Proc.devRef .tc main_v48)
      = Cert.KernelIdeal.Mm1.prod (Y (Proc.devRef .tc main_v47)) (Y (Proc.devRef .tc main_arg4)) := by
  simp only [ops, List.drop_succ_cons, List.drop_zero, List.take_succ_cons, List.take_zero]
  after_results_simp
  rfl

theorem dotC :
    StableHlo.after (((ops (F := Ideal)).drop 119).take 1) Y (Proc.devRef .tc main_v89)
      = Tail.prod (Y (Proc.devRef .tc main_v88)) (Y (Proc.devRef .tc main_arg6)) := by
  simp only [ops, List.drop_succ_cons, List.drop_zero, List.take_succ_cons, List.take_zero]
  after_results_simp
  rfl

end Products

/-! ## What the first operations leave: the arguments as found, the sources and targets computed -/

section Prefixes
variable {F : FTy → Type} [FloatOps F] (X : Valuation τ sig (Elt F))

theorem pre7_arg0 : StableHlo.after ((ops (F := F)).take 7) X (Proc.devRef .tc main_arg0) = X (Proc.devRef .tc main_arg0) := by
  simp only [ops, List.take_succ_cons, List.take_zero]; after_results_simp
theorem pre7_arg2 : StableHlo.after ((ops (F := F)).take 7) X (Proc.devRef .tc main_arg2) = X (Proc.devRef .tc main_arg2) := by
  simp only [ops, List.take_succ_cons, List.take_zero]; after_results_simp
theorem pre8_arg3 : StableHlo.after ((ops (F := F)).take 8) X (Proc.devRef .tc main_arg3) = X (Proc.devRef .tc main_arg3) := by
  simp only [ops, List.take_succ_cons, List.take_zero]; after_results_simp
theorem pre8_v3 : StableHlo.after ((ops (F := F)).take 8) X (Proc.devRef .tc main_v3) = rowOf (F := F) (X (Proc.devRef .tc main_arg1)) := by
  simp only [ops, List.take_succ_cons, List.take_zero]; after_results_simp; rfl
theorem pre8_v6 : StableHlo.after ((ops (F := F)).take 8) X (Proc.devRef .tc main_v6) = colOf (F := F) (X (Proc.devRef .tc main_arg1)) := by
  simp only [ops, List.take_succ_cons, List.take_zero]; after_results_simp; rfl
theorem pre63_arg4 : StableHlo.after ((ops (F := F)).take 63) X (Proc.devRef .tc main_arg4) = X (Proc.devRef .tc main_arg4) := by
  simp only [ops, List.take_succ_cons, List.take_zero]; after_results_simp
theorem pre64_arg5 : StableHlo.after ((ops (F := F)).take 64) X (Proc.devRef .tc main_arg5) = X (Proc.devRef .tc main_arg5) := by
  simp only [ops, List.take_succ_cons, List.take_zero]; after_results_simp
theorem pre64_v3 : StableHlo.after ((ops (F := F)).take 64) X (Proc.devRef .tc main_v3) = rowOf (F := F) (X (Proc.devRef .tc main_arg1)) := by
  simp only [ops, List.take_succ_cons, List.take_zero]; after_results_simp; rfl
theorem pre64_v6 : StableHlo.after ((ops (F := F)).take 64) X (Proc.devRef .tc main_v6) = colOf (F := F) (X (Proc.devRef .tc main_arg1)) := by
  simp only [ops, List.take_succ_cons, List.take_zero]; after_results_simp; rfl
theorem pre119_arg6 : StableHlo.after ((ops (F := F)).take 119) X (Proc.devRef .tc main_arg6) = X (Proc.devRef .tc main_arg6) := by
  simp only [ops, List.take_succ_cons, List.take_zero]; after_results_simp
theorem pre120_arg7 : StableHlo.after ((ops (F := F)).take 120) X (Proc.devRef .tc main_arg7) = X (Proc.devRef .tc main_arg7) := by
  simp only [ops, List.take_succ_cons, List.take_zero]; after_results_simp

end Prefixes

/-! ## The result array, composed -/

section Value
variable (X : Valuation τ sig (Elt Ideal))

theorem v7_eq : StableHlo.after ((ops (F := Ideal)).take 8) X (Proc.devRef .tc main_v7)
    = Cert.KernelIdeal.Mm0.prod (X (Proc.devRef .tc main_arg0)) (X (Proc.devRef .tc main_arg2)) := by
  rw [show (8 : Nat) = 7 + 1 from rfl, after_take_add, dotA, pre7_arg0, pre7_arg2]

theorem v47_eq : StableHlo.after ((ops (F := Ideal)).take 63) X (Proc.devRef .tc main_v47)
    = layer (rowOf (X (Proc.devRef .tc main_arg1))) (colOf (X (Proc.devRef .tc main_arg1))) (X (Proc.devRef .tc main_arg3))
        (Cert.KernelIdeal.Mm0.prod (X (Proc.devRef .tc main_arg0)) (X (Proc.devRef .tc main_arg2))) := by
  rw [show (63 : Nat) = 8 + 55 from rfl, after_take_add, lay1, pre8_v3, pre8_v6, pre8_arg3, v7_eq]

theorem v48_eq : StableHlo.after ((ops (F := Ideal)).take 64) X (Proc.devRef .tc main_v48)
    = Cert.KernelIdeal.Mm1.prod
        (layer (rowOf (X (Proc.devRef .tc main_arg1))) (colOf (X (Proc.devRef .tc main_arg1))) (X (Proc.devRef .tc main_arg3))
          (Cert.KernelIdeal.Mm0.prod (X (Proc.devRef .tc main_arg0)) (X (Proc.devRef .tc main_arg2))))
        (X (Proc.devRef .tc main_arg4)) := by
  rw [show (64 : Nat) = 63 + 1 from rfl, after_take_add, dotB, v47_eq, pre63_arg4]

theorem v88_eq : StableHlo.after ((ops (F := Ideal)).take 119) X (Proc.devRef .tc main_v88)
    = layer (rowOf (X (Proc.devRef .tc main_arg1))) (colOf (X (Proc.devRef .tc main_arg1))) (X (Proc.devRef .tc main_arg5))
        (Cert.KernelIdeal.Mm1.prod
          (layer (rowOf (X (Proc.devRef .tc main_arg1))) (colOf (X (Proc.devRef .tc main_arg1))) (X (Proc.devRef .tc main_arg3))
            (Cert.KernelIdeal.Mm0.prod (X (Proc.devRef .tc main_arg0)) (X (Proc.devRef .tc main_arg2))))
          (X (Proc.devRef .tc main_arg4))) := by
  rw [show (119 : Nat) = 64 + 55 from rfl, after_take_add, lay2, pre64_v3, pre64_v6, pre64_arg5, v48_eq]

theorem v89_eq : StableHlo.after ((ops (F := Ideal)).take 120) X (Proc.devRef .tc main_v89)
    = Tail.prod
        (layer (rowOf (X (Proc.devRef .tc main_arg1))) (colOf (X (Proc.devRef .tc main_arg1))) (X (Proc.devRef .tc main_arg5))
          (Cert.KernelIdeal.Mm1.prod
            (layer (rowOf (X (Proc.devRef .tc main_arg1))) (colOf (X (Proc.devRef .tc main_arg1))) (X (Proc.devRef .tc main_arg3))
              (Cert.KernelIdeal.Mm0.prod (X (Proc.devRef .tc main_arg0)) (X (Proc.devRef .tc main_arg2))))
            (X (Proc.devRef .tc main_arg4))))
        (X (Proc.devRef .tc main_arg6)) := by
  rw [show (120 : Nat) = 119 + 1 from rfl, after_take_add, dotC, v88_eq, pre119_arg6]

/-- THE RESULT ARRAY of the reference, as one function of the arguments. -/
theorem v93_eq : StableHlo.after (ops (F := Ideal)) X (Proc.devRef .tc main_v93)
    = result
        (layer (rowOf (X (Proc.devRef .tc main_arg1))) (colOf (X (Proc.devRef .tc main_arg1))) (X (Proc.devRef .tc main_arg5))
          (Cert.KernelIdeal.Mm1.prod
            (layer (rowOf (X (Proc.devRef .tc main_arg1))) (colOf (X (Proc.devRef .tc main_arg1))) (X (Proc.devRef .tc main_arg3))
              (Cert.KernelIdeal.Mm0.prod (X (Proc.devRef .tc main_arg0)) (X (Proc.devRef .tc main_arg2))))
            (X (Proc.devRef .tc main_arg4))))
        (X (Proc.devRef .tc main_arg6)) (X (Proc.devRef .tc main_arg7)) := by
  rw [after_split 123 ops X, tailB, show (123 : Nat) = 120 + 3 from rfl, after_take_add, tailA, v89_eq, pre120_arg7]
  exact Tail.tail_eq _ _ _

end Value

/-! ## No operation writes an argument -/

section Keep
variable {F : FTy → Type} [FloatOps F] (X : Valuation τ sig (Elt F))

theorem keep_arg0 : StableHlo.after (ops (F := F)) X (Proc.devRef .tc main_arg0) = X (Proc.devRef .tc main_arg0) := by after_results_simp
theorem keep_arg1 : StableHlo.after (ops (F := F)) X (Proc.devRef .tc main_arg1) = X (Proc.devRef .tc main_arg1) := by after_results_simp
theorem keep_arg2 : StableHlo.after (ops (F := F)) X (Proc.devRef .tc main_arg2) = X (Proc.devRef .tc main_arg2) := by after_results_simp
theorem keep_arg3 : StableHlo.after (ops (F := F)) X (Proc.devRef .tc main_arg3) = X (Proc.devRef .tc main_arg3) := by after_results_simp
theorem keep_arg4 : StableHlo.after (ops (F := F)) X (Proc.devRef .tc main_arg4) = X (Proc.devRef .tc main_arg4) := by after_results_simp
theorem keep_arg5 : StableHlo.after (ops (F := F)) X (Proc.devRef .tc main_arg5) = X (Proc.devRef .tc main_arg5) := by after_results_simp
theorem keep_arg6 : StableHlo.after (ops (F := F)) X (Proc.devRef .tc main_arg6) = X (Proc.devRef .tc main_arg6) := by after_results_simp
theorem keep_arg7 : StableHlo.after (ops (F := F)) X (Proc.devRef .tc main_arg7) = X (Proc.devRef .tc main_arg7) := by after_results_simp

end Keep

/-! ## The run -/

/-- Every weakly fair execution of the idealized reference's @main terminates, nothing faulting, with the result array at
    the log-softmax of the logits of two layers over the products of the arguments, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93)
        = result
            (layer (rowOf (m ((c.tc : Thread nD τ).loc main_arg1))) (colOf (m ((c.tc : Thread nD τ).loc main_arg1)))
              (m ((c.tc : Thread nD τ).loc main_arg5))
              (Cert.KernelIdeal.Mm1.prod
                (layer (rowOf (m ((c.tc : Thread nD τ).loc main_arg1))) (colOf (m ((c.tc : Thread nD τ).loc main_arg1)))
                  (m ((c.tc : Thread nD τ).loc main_arg3))
                  (Cert.KernelIdeal.Mm0.prod (m ((c.tc : Thread nD τ).loc main_arg0)) (m ((c.tc : Thread nD τ).loc main_arg2))))
                (m ((c.tc : Thread nD τ).loc main_arg4))))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v93).trans (v93_eq (launchContents m c)),
       (h c main_arg0).trans (keep_arg0 (launchContents m c)),
       (h c main_arg1).trans (keep_arg1 (launchContents m c)),
       (h c main_arg2).trans (keep_arg2 (launchContents m c)),
       (h c main_arg3).trans (keep_arg3 (launchContents m c)),
       (h c main_arg4).trans (keep_arg4 (launchContents m c)),
       (h c main_arg5).trans (keep_arg5 (launchContents m c)),
       (h c main_arg6).trans (keep_arg6 (launchContents m c)),
       (h c main_arg7).trans (keep_arg7 (launchContents m c))⟩)
    (run_seq scopedRefs_eq scopedSems_eq defs main (fun _ => ops) main_eq (fun _ => ops_sub) m ρ)

end Cert.ReferenceIdeal.Stages

end
-- ==== Proof.lean ====
/-
  The certificate: a three-layer graph network — two graph-convolution layers and a linear layer with a log-softmax —
  whose three dense products run as TensorCore kernels over blocks of 5000 nodes, against the same network computed on
  the host. At the ideal values the two programs compute the same function of their arguments:

    out = log_softmax ( layer₂ ( layer₁ (x · W1) · W2 ) · W3 + b3 )

  where a layer gathers the rows of its operand along the edges, scales them by the symmetric degree weights, adds them
  up at the edges' targets, adds the bias and clamps at zero. The kernel's products are taken block of rows by block of
  rows: a block of rows of a product is the product of the block of rows (the roundings to bf16 on the way in are the
  identity at the ideal values), and the blocks tile the rows, so each kernel leaves the whole product (the last one,
  the log-softmax of the whole product's logits, which is taken row by row). Between the products both programs apply
  the same host operations to equal operands. No law of arithmetic beyond this regrouping is used, and the finiteness
  of the inputs is never needed. The word-level kernel is its own idealization (the ideal pass rewrote nothing).
-/
import proofs.«127704_j86612310492049_1_alg».proof.Defs
import proofs.«127704_j86612310492049_1_alg».proof.Proof.Gen.Kernel
import proofs.«127704_j86612310492049_1_alg».proof.Proof.Gen.Kernel.Skeleton
import proofs.«127704_j86612310492049_1_alg».proof.Proof.Gen.Kernel.Launch
import proofs.«127704_j86612310492049_1_alg».proof.Proof.Gen.Kernel.Points
import proofs.«127704_j86612310492049_1_alg».proof.Proof.Gen.Kernel.Frame
import proofs.«127704_j86612310492049_1_alg».proof.Proof.Gen.KernelIdeal
import proofs.«127704_j86612310492049_1_alg».proof.Proof.Gen.KernelIdeal.Skeleton
import proofs.«127704_j86612310492049_1_alg».proof.Proof.Gen.KernelIdeal.Launch
import proofs.«127704_j86612310492049_1_alg».proof.Proof.Gen.KernelIdeal.Points
import proofs.«127704_j86612310492049_1_alg».proof.Proof.Gen.KernelIdeal.Frame
import proofs.«127704_j86612310492049_1_alg».proof.Proof.Gen.ReferenceIdeal
import proofs.«127704_j86612310492049_1_alg».proof.Proof.Gen.Pre_finite_inputs
import proofs.«127704_j86612310492049_1_alg».proof.Proof.KernelRun
import proofs.«127704_j86612310492049_1_alg».proof.Proof.KernelValue
import proofs.«127704_j86612310492049_1_alg».proof.Proof.RefStages
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The idealized reference runs and leaves its arguments as launched: its run, the result forgotten. -/
theorem frame_ri : Cert.frame_ReferenceIdeal := fun m ρ _ =>
  (θ_run Cert.ReferenceIdeal.defs _ _).mono (fun _ h c => (h c).2) (Cert.ReferenceIdeal.Stages.run m ρ)

/-- The ideal pass rewrote no operation. -/
theorem preserves : Cert.preserves_Kernel_KernelIdeal := trivial

/-- From memories agreeing on the arguments both idealized programs end with the result array at the same function of the
    arguments: the kernel's by its regions' closed forms and its host stretches, the reference's by its stages. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Whole.W12_v89 m ρ c), (h c).2⟩) (Cert.KernelIdeal.Run.run_named m ρ), ?_⟩
  refine (θ_run Cert.ReferenceIdeal.defs _ _).mono (fun _ h c => ⟨(h c).1.trans ?_, (h c).2⟩)
    (Cert.ReferenceIdeal.Stages.run m' ρ')
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
